-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S128x128 : Shape := ⟨2, ![128, 128]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x4096x4096 .f32) (main_arg1 : FVec F S128x128 .f32) (main_arg2 : FVec F S128x128 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x4096x4096 : Shape := ⟨3, ![8, 4096, 4096]⟩
abbrev S128x128 : Shape := ⟨2, ![128, 128]⟩
abbrev S32768x4096 : Shape := ⟨2, ![32768, 4096]⟩
abbrev S128x4096 : Shape := ⟨2, ![128, 4096]⟩
abbrev S128x32x128 : Shape := ⟨3, ![128, 32, 128]⟩
abbrev S4096x128 : Shape := ⟨2, ![4096, 128]⟩
abbrev S128x32x32x4 : Shape := ⟨4, ![128, 32, 32, 4]⟩
abbrev S128x32x4x32 : Shape := ⟨4, ![128, 32, 4, 32]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x4096, .f32⟩
  | .hbm, ⟨1, _⟩ => ⟨S128x128, .f32⟩
  | .hbm, ⟨2, _⟩ => ⟨S128x128, .f32⟩
  | .hbm, ⟨3, _⟩ => ⟨S32768x4096, .f32⟩
  | .hbm, ⟨4, _⟩ => ⟨S32768x4096, .f32⟩
  | .hbm, ⟨5, _⟩ => ⟨S8x4096x4096, .f32⟩
  | .local _ .vmem, ⟨0, _⟩ => ⟨S128x4096, .f32⟩
  | .local _ .vmem, ⟨1, _⟩ => ⟨S128x4096, .f32⟩
  | .local _ .vmem, ⟨2, _⟩ => ⟨S128x128, .f32⟩
  | .local _ .vmem, ⟨3, _⟩ => ⟨S128x128, .f32⟩
  | .local _ .vmem, ⟨4, _⟩ => ⟨S128x4096, .f32⟩
  | .local _ .vmem, ⟨5, _⟩ => ⟨S128x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x4096_S32768x4096 : S8x4096x4096.ShapeCasts S32768x4096
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x32x128 : S128x4096.ShapeCasts S128x32x128
  shapeCasts_S128x32x128_S4096x128 : S128x32x128.ShapeCasts S4096x128
  shapeCasts_S4096x128_S128x32x128 : S4096x128.ShapeCasts S128x32x128
  shapeCasts_S128x32x128_S128x32x32x4 : S128x32x128.ShapeCasts S128x32x32x4
  transposes_S128x32x32x4_p0_2_3_1_S128x32x4x32 : S128x32x32x4.Transposes [0, 2, 3, 1] S128x32x4x32
  shapeCasts_S128x32x4x32_S128x32x128 : S128x32x4x32.ShapeCasts S128x32x128
  shapeCasts_S128x32x128_S128x4096 : S128x32x128.ShapeCasts S128x4096
  shapeCasts_S32768x4096_S8x4096x4096 : S32768x4096.ShapeCasts S8x4096x4096
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S32768x4096.size a
  hwx0_0 : ∀ i : grid0.Coords, EltTy.bits .f32 = 32 ∨ (Rect.block (s := S32768x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S32768x4096.size a
  hwx0_3 : ∀ i : grid0.Coords, EltTy.bits .f32 = 32 ∨ (Rect.block (s := S32768x4096) S128x4096.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S128x128 : Shape := ⟨2, ![128, 128]⟩
abbrev S32768x32x128 : Shape := ⟨3, ![32768, 32, 128]⟩
abbrev S32768x128x32 : Shape := ⟨3, ![32768, 128, 32]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S128x128, .f32⟩
  | .hbm, ⟨2, _⟩ => ⟨S128x128, .f32⟩
  | .hbm, ⟨3, _⟩ => ⟨S32768x32x128, .f32⟩
  | .hbm, ⟨4, _⟩ => ⟨S32768x32x128, .f32⟩
  | .hbm, ⟨5, _⟩ => ⟨S32768x128x32, .f32⟩
  | .hbm, ⟨6, _⟩ => ⟨S32768x32x128, .f32⟩
  | .hbm, ⟨7, _⟩ => ⟨S32768x32x128, .f32⟩
  | .hbm, ⟨8, _⟩ => ⟨S32768x128x32, .f32⟩
  | .hbm, ⟨9, _⟩ => ⟨S32768x32x128, .f32⟩
  | .hbm, ⟨10, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S8x4096x4096_S32768x32x128 : S8x4096x4096.ShapeCasts S32768x32x128
  transposes_S32768x32x128_S32768x128x32_0_2_1 : S32768x32x128.Transposes [0, 2, 1] S32768x128x32
  shapeCasts_S32768x128x32_S32768x32x128 : S32768x128x32.ShapeCasts S32768x32x128
  shapeCasts_S32768x32x128_S8x4096x4096 : S32768x32x128.ShapeCasts S8x4096x4096
  dot_S32768x32x128_S128x128_S32768x32x128_2_0_01_1_n_n_wf : DotDims.WF S32768x32x128 S128x128 S32768x32x128 [2] [0] [0, 1] [1] [] []

variable [Facts₀]

def dot_S32768x32x128_S128x128_S32768x32x128_2_0_01_1_n_n : DotDims S32768x32x128 S128x128 S32768x32x128 where
  lhsContracting := [2]
  rhsContracting := [0]
  lhsNonContracting := [0, 1]
  rhsNonContracting := [1]
  lhsBatch := []
  rhsBatch := []
  wf := dot_S32768x32x128_S128x128_S32768x32x128_2_0_01_1_n_n_wf

class Facts : Prop extends Facts₀ where

variable [Facts]
-- ==== Proof.Spec.lean ====
/-
  The two-stage block mixing of a token, over the extended reals.

  A token is a row of 4096 numbers, read as 32 blocks of 128 lanes. One stage multiplies every block by a
  128 × 128 weight matrix and then deals the 32 · 128 products out again: writing a lane k' of the new row as
  k' = 32 · u + v with u < 4 and v < 32, entry (h, k') of the new row is entry (v, 4 · h + u) of the product — the
  product's 128 columns are cut into 32 groups of 4, group h goes to block h, and inside block h the four columns
  of the 32 source blocks are laid side by side, column-major. The whole map is two such stages, the first with
  the weights w1 and the second with w2, applied to each of the 8 · 4096 = 32768 tokens on its own.

  Everything is stated index by index over literal extents; sums over the 128 contracted lanes are plain finite
  sums in the extended reals, so no order of summation and no rounding is left in the statement.
-/
import Idealize.ShloMosaic.PureOps.Ideal
import Idealize.ShloMosaic.Lib.ValueIdx

noncomputable section

namespace Cert.BlockMix

open Idealize.ShloMosaic Idealize.ShloMosaic.ValueIdx

/-! ## The arithmetic of the positions -/

/-- Lane k of block b of a token row: position 128 · b + k among the 4096. -/
def lane (b : Fin 32) (k : Fin 128) : Fin 4096 := ⟨b.val * 128 + k.val, by have := b.isLt; have := k.isLt; omega⟩
/-- The block a position of a token row lies in, -/
def blockOf (q : Fin 4096) : Fin 32 := ⟨q.val / 128, by have := q.isLt; omega⟩
/-- and its lane inside that block. -/
def laneOf (q : Fin 4096) : Fin 128 := ⟨q.val % 128, Nat.mod_lt _ (by norm_num)⟩

/-- Row 32 · p + b of the 4096 block rows of a tile of 128 tokens: block b of token p. -/
def blockRow (p : Fin 128) (b : Fin 32) : Fin 4096 := ⟨p.val * 32 + b.val, by have := p.isLt; have := b.isLt; omega⟩

/-- A lane k' = 32 · u + v of the dealt row: the source block v it takes its entry from, -/
def srcBlock (k' : Fin 128) : Fin 32 := ⟨k'.val % 32, Nat.mod_lt _ (by norm_num)⟩
/-- and which of the four columns of its group, u. -/
def quarter (k' : Fin 128) : Fin 4 := ⟨k'.val / 32, by have := k'.isLt; omega⟩
/-- Column 4 · h + u of the product: column u of group h. -/
def groupCol (h : Fin 32) (u : Fin 4) : Fin 128 := ⟨h.val * 4 + u.val, by have := h.isLt; have := u.isLt; omega⟩

/-- Token p of tile t: token number 128 · t + p of the 32768 (256 tiles of 128 tokens). -/
def tileToken (t : Fin 256) (p : Fin 128) : Fin 32768 := ⟨t.val * 128 + p.val, by have := t.isLt; have := p.isLt; omega⟩

/-- Token number 4096 · a + s of the 32768, for batch a and sequence position s. -/
def token (a : Fin 8) (s : Fin 4096) : Fin 32768 := ⟨a.val * 4096 + s.val, by have := a.isLt; have := s.isLt; omega⟩
/-- The batch of a token, -/
def batchOf (z : Fin 32768) : Fin 8 := ⟨z.val / 4096, by have := z.isLt; omega⟩
/-- and its sequence position. -/
def posOf (z : Fin 32768) : Fin 4096 := ⟨z.val % 4096, Nat.mod_lt _ (by norm_num)⟩

/-! ## One stage, and the map -/

/-- ONE STAGE on a token row given block by block: entry (h, k') is the sum over the 128 lanes k of the source block's
    lane k times the weight at (k, 4 · h + u), for k' = 32 · u + v and source block v. -/
def stage (row : Fin 32 → Fin 128 → EReal) (w : Fin 128 → Fin 128 → EReal) : Fin 32 → Fin 128 → EReal :=
  fun h k' => ∑ k : Fin 128, row (srcBlock k') k * w k (groupCol h (quarter k'))

/-- The stage at an entry, spelt out. -/
theorem stage_def (row : Fin 32 → Fin 128 → EReal) (w : Fin 128 → Fin 128 → EReal) (h : Fin 32) (k' : Fin 128) :
    stage row w h k' = ∑ k : Fin 128, row (srcBlock k') k * w k (groupCol h (quarter k')) := rfl

/-- A 128 × 128 weight array by row and column. -/
def mat (w : (⟨2, ![128, 128]⟩ : Shape).Idx → EReal) : Fin 128 → Fin 128 → EReal := fun a b => w (ix2 a b)

/-- Token z's row of a [32768, 4096] array, block by block. -/
def rowOf (X : (⟨2, ![32768, 4096]⟩ : Shape).Idx → EReal) (z : Fin 32768) : Fin 32 → Fin 128 → EReal :=
  fun b k => X (ix2 z (lane b k))

/-- THE MAP on a [32768, 4096] array of tokens: both stages on each token's row. -/
def mix (X : (⟨2, ![32768, 4096]⟩ : Shape).Idx → EReal) (w1 w2 : (⟨2, ![128, 128]⟩ : Shape).Idx → EReal) :
    (⟨2, ![32768, 4096]⟩ : Shape).Idx → EReal :=
  fun i => stage (stage (rowOf X (i 0)) (mat w1)) (mat w2) (blockOf (i 1)) (laneOf (i 1))

/-- A [8, 4096, 4096] array read as 32768 tokens. -/
def tokens (x : (⟨3, ![8, 4096, 4096]⟩ : Shape).Idx → EReal) : (⟨2, ![32768, 4096]⟩ : Shape).Idx → EReal :=
  fun i => x (ix3 (batchOf (i 0)) (posOf (i 0)) (i 1))

/-- THE RESULT as a [8, 4096, 4096] array: the map on the tokens, read back by batch and position. -/
def result (x : (⟨3, ![8, 4096, 4096]⟩ : Shape).Idx → EReal) (w1 w2 : (⟨2, ![128, 128]⟩ : Shape).Idx → EReal) :
    (⟨3, ![8, 4096, 4096]⟩ : Shape).Idx → EReal :=
  fun i => mix (tokens x) w1 w2 (ix2 (token (i 0) (i 1)) (i 2))

end Cert.BlockMix

end
-- ==== Proof.RefValue.lean ====
/-
  The reference computes the two-stage block mixing.

  The reference reads the [8, 4096, 4096] input as [32768, 32, 128] (token, block, lane), and twice: contracts the lane
  axis with a 128 × 128 weight array, swaps the block and column axes to [32768, 128, 32], and reads the 128 · 32
  numbers of each token again as [32, 128]. Entry (b, k) of the re-read row sits at position 128 · b + k of the token,
  which in the swapped array is column (128 · b + k) / 32 = 4 · b + k / 32 and block (128 · b + k) mod 32 = k mod 32: the
  stage of the specification. A last change of arrangement gives the result back by batch and position.
-/
import proofs.«103786_j28836410426083_2_alg».proof.Proof.Gen.ReferenceIdeal.Read
import proofs.«103786_j28836410426083_2_alg».proof.Proof.Spec

noncomputable section

namespace Cert.ReferenceIdeal.RefValue

open Cert.ReferenceIdeal Cert.ReferenceIdeal.Read Cert.BlockMix Idealize.ShloMosaic Idealize.ShloMosaic.ValueIdx

/-- The input read as tokens, blocks and lanes: entry (z, b, k) is lane k of block b of token z. -/
theorem blocks_apply (x : (⟨S8x4096x4096, .f32⟩ : BufTy).Contents (Elt Ideal)) (z : Fin 32768) (b : Fin 32) (k : Fin 128) :
    val_main_v0 (F := Ideal) x (ix3 z b k) = rowOf (tokens x) z b k := by
  rw [val_main_v0_apply]
  show x (idx_main_v0 (ix3 z b k)) = x (ix3 (batchOf z) (posOf z) (lane b k))
  refine congrArg x (funext fun a => Fin.ext ?_)
  have hz := z.isLt; have hb := b.isLt; have hk := k.isLt
  match a with
  | ⟨0, _⟩ => show ((z.val * 32 + b.val) * 128 + k.val) / 16777216 = z.val / 4096; omega
  | ⟨1, _⟩ => show ((z.val * 32 + b.val) * 128 + k.val) / 4096 % 4096 = z.val % 4096; omega
  | ⟨2, _⟩ => show ((z.val * 32 + b.val) * 128 + k.val) % 4096 = b.val * 128 + k.val; omega

/-- After the first contraction, swap and re-reading: the first stage of token z's row. -/
theorem first_stage_apply (x : (⟨S8x4096x4096, .f32⟩ : BufTy).Contents (Elt Ideal)) (w1 : (⟨S128x128, .f32⟩ : BufTy).Contents (Elt Ideal))
    (z : Fin 32768) (b : Fin 32) (k : Fin 128) :
    val_main_v3 (F := Ideal) x w1 (ix3 z b k) = stage (rowOf (tokens x) z) (mat w1) b k := by
  rw [val_main_v3_apply, val_main_v2_apply, val_main_v1_apply, stage_def]
  refine Finset.sum_congr rfl fun j _ => ?_
  have hz := z.isLt; have hb := b.isLt; have hk := k.isLt
  have el : lidx_main_v1 (idx_main_v2 (idx_main_v3 (ix3 z b k))) j = ix3 z (srcBlock k) j := funext fun a => Fin.ext (by
    match a with
    | ⟨0, _⟩ => show ((z.val * 32 + b.val) * 128 + k.val) / 4096 = z.val; omega
    | ⟨1, _⟩ => show ((z.val * 32 + b.val) * 128 + k.val) % 32 = k.val % 32; omega
    | ⟨2, _⟩ => rfl)
  have er : ridx_main_v1 (idx_main_v2 (idx_main_v3 (ix3 z b k))) j = ix2 j (groupCol b (quarter k)) := funext fun a => Fin.ext (by
    match a with
    | ⟨0, _⟩ => rfl
    | ⟨1, _⟩ => show ((z.val * 32 + b.val) * 128 + k.val) / 32 % 128 = b.val * 4 + k.val / 32; omega)
  rw [el, er, blocks_apply]
  rfl

/-- After the second contraction, swap and re-reading: both stages of token z's row. -/
theorem second_stage_apply (x : (⟨S8x4096x4096, .f32⟩ : BufTy).Contents (Elt Ideal)) (w1 w2 : (⟨S128x128, .f32⟩ : BufTy).Contents (Elt Ideal))
    (z : Fin 32768) (b : Fin 32) (k : Fin 128) :
    val_main_v6 (F := Ideal) x w1 w2 (ix3 z b k) = stage (stage (rowOf (tokens x) z) (mat w1)) (mat w2) b k := by
  rw [val_main_v6_apply, val_main_v5_apply, val_main_v4_apply, stage_def]
  refine Finset.sum_congr rfl fun j _ => ?_
  have hz := z.isLt; have hb := b.isLt; have hk := k.isLt
  have el : lidx_main_v4 (idx_main_v5 (idx_main_v6 (ix3 z b k))) j = ix3 z (srcBlock k) j := funext fun a => Fin.ext (by
    match a with
    | ⟨0, _⟩ => show ((z.val * 32 + b.val) * 128 + k.val) / 4096 = z.val; omega
    | ⟨1, _⟩ => show ((z.val * 32 + b.val) * 128 + k.val) % 32 = k.val % 32; omega
    | ⟨2, _⟩ => rfl)
  have er : ridx_main_v4 (idx_main_v5 (idx_main_v6 (ix3 z b k))) j = ix2 j (groupCol b (quarter k)) := funext fun a => Fin.ext (by
    match a with
    | ⟨0, _⟩ => rfl
    | ⟨1, _⟩ => show ((z.val * 32 + b.val) * 128 + k.val) / 32 % 128 = b.val * 4 + k.val / 32; omega)
  rw [el, er, first_stage_apply]
  rfl

/-- THE REFERENCE'S RESULT is the specification's, index by index. -/
theorem result_eq (x : (⟨S8x4096x4096, .f32⟩ : BufTy).Contents (Elt Ideal)) (w1 w2 : (⟨S128x128, .f32⟩ : BufTy).Contents (Elt Ideal)) :
    val_main_v7 (F := Ideal) x w1 w2 = result x w1 w2 := by
  funext i
  obtain ⟨a, s, n, rfl⟩ : ∃ (a : Fin 8) (s : Fin 4096) (n : Fin 4096), i = ix3 a s n := ⟨i 0, i 1, i 2, eq_ix3 i⟩
  rw [val_main_v7_apply]
  have ha := a.isLt; have hs := s.isLt; have hn := n.isLt
  have e : idx_main_v7 (ix3 a s n) = ix3 (token a s) (blockOf n) (laneOf n) := funext fun c => Fin.ext (by
    match c with
    | ⟨0, _⟩ => show ((a.val * 4096 + s.val) * 4096 + n.val) / 4096 = a.val * 4096 + s.val; omega
    | ⟨1, _⟩ => show ((a.val * 4096 + s.val) * 4096 + n.val) / 128 % 32 = n.val / 128; omega
    | ⟨2, _⟩ => show ((a.val * 4096 + s.val) * 4096 + n.val) % 128 = n.val % 128; omega)
  rw [e, second_stage_apply]
  rfl

end Cert.ReferenceIdeal.RefValue

end
-- ==== Proof.Layouts.lean ====
/-
  The layout operations of a tile of 128 tokens, read at an index written by coordinates.

  A tile is a [128, 4096] array: 128 tokens of 4096 numbers. The stage works on three other arrangements of the
  same 128 · 4096 numbers — [128, 32, 128] (token, block, lane), [4096, 128] (block row 32 · p + b, lane) and
  [128, 32, 32, 4] (token, block, group of columns, column in the group) — and on the dealt arrangement
  [128, 32, 4, 32] (token, group, column in the group, source block). Every change of arrangement but one keeps the
  row-major position, so it is read by writing that position in both sets of coordinates; the one that moves
  numbers is the transposition that carries the source-block axis behind the two column axes.
-/
import Idealize.ShloMosaic.Lib.Pipeline.Value
import Idealize.ShloMosaic.Lib.ValueIdx
import proofs.«103786_j28836410426083_2_alg».proof.Proof.Spec

noncomputable section

namespace Cert.BlockMix

open Idealize.ShloMosaic Idealize.ShloMosaic.ValueIdx

variable {α : Type}

/-- A tile cut into blocks: entry (p, b, k) is the tile's entry at token p, position 128 · b + k. -/
theorem cut_blocks_apply (x : (⟨2, ![128, 4096]⟩ : Shape).Idx → α)
    (h : (⟨2, ![128, 4096]⟩ : Shape).ShapeCasts ⟨3, ![128, 32, 128]⟩) (p : Fin 128) (b : Fin 32) (k : Fin 128) :
    shapeCast ⟨3, ![128, 32, 128]⟩ x h (ix3 p b k) = x (ix2 p (lane b k)) :=
  shapeCast_apply x h _ _ (by
    rw [Shape.rowMajor_val_two, Shape.rowMajor_val_three]
    show p.val * 4096 + (b.val * 128 + k.val) = (p.val * 32 + b.val) * 128 + k.val
    omega)

/-- The blocks joined back into a tile: entry (p, q) is block q / 128 of token p at lane q mod 128. -/
theorem join_blocks_apply (y : (⟨3, ![128, 32, 128]⟩ : Shape).Idx → α)
    (h : (⟨3, ![128, 32, 128]⟩ : Shape).ShapeCasts ⟨2, ![128, 4096]⟩) (p : Fin 128) (q : Fin 4096) :
    shapeCast ⟨2, ![128, 4096]⟩ y h (ix2 p q) = y (ix3 p (blockOf q) (laneOf q)) :=
  shapeCast_apply y h _ _ (by
    rw [Shape.rowMajor_val_three, Shape.rowMajor_val_two]
    show (p.val * 32 + q.val / 128) * 128 + q.val % 128 = p.val * 4096 + q.val
    omega)

/-- The blocks of all tokens stacked as rows: row 32 · p + b is block b of token p. -/
theorem stack_rows_apply (y : (⟨3, ![128, 32, 128]⟩ : Shape).Idx → α)
    (h : (⟨3, ![128, 32, 128]⟩ : Shape).ShapeCasts ⟨2, ![4096, 128]⟩) (p : Fin 128) (b : Fin 32) (k : Fin 128) :
    shapeCast ⟨2, ![4096, 128]⟩ y h (ix2 (blockRow p b) k) = y (ix3 p b k) :=
  shapeCast_apply y h _ _ (by
    rw [Shape.rowMajor_val_three, Shape.rowMajor_val_two]
    show (p.val * 32 + b.val) * 128 + k.val = (p.val * 32 + b.val) * 128 + k.val
    rfl)

/-- The rows handed back to their tokens: entry (p, b, k) is row 32 · p + b at lane k. -/
theorem unstack_rows_apply (M : (⟨2, ![4096, 128]⟩ : Shape).Idx → α)
    (h : (⟨2, ![4096, 128]⟩ : Shape).ShapeCasts ⟨3, ![128, 32, 128]⟩) (p : Fin 128) (b : Fin 32) (k : Fin 128) :
    shapeCast ⟨3, ![128, 32, 128]⟩ M h (ix3 p b k) = M (ix2 (blockRow p b) k) :=
  shapeCast_apply M h _ _ (by
    rw [Shape.rowMajor_val_two, Shape.rowMajor_val_three]
    show (p.val * 32 + b.val) * 128 + k.val = (p.val * 32 + b.val) * 128 + k.val
    rfl)

/-- The 128 columns cut into 32 groups of 4: entry (p, b, g, u) is column 4 · g + u of block b of token p. -/
theorem cut_groups_apply (y : (⟨3, ![128, 32, 128]⟩ : Shape).Idx → α)
    (h : (⟨3, ![128, 32, 128]⟩ : Shape).ShapeCasts ⟨4, ![128, 32, 32, 4]⟩) (p : Fin 128) (b : Fin 32) (g : Fin 32) (u : Fin 4) :
    shapeCast ⟨4, ![128, 32, 32, 4]⟩ y h (ix4 p b g u) = y (ix3 p b (groupCol g u)) :=
  shapeCast_apply y h _ _ (by
    rw [Shape.rowMajor_val_three, Shape.rowMajor_val_four]
    show (p.val * 32 + b.val) * 128 + (g.val * 4 + u.val) = ((p.val * 32 + b.val) * 32 + g.val) * 4 + u.val
    omega)

/-- THE DEALING: the source-block axis carried behind the two column axes — entry (p, g, u, b) of the dealt array is
    entry (p, b, g, u) of the operand. -/
theorem deal_apply (y : (⟨4, ![128, 32, 32, 4]⟩ : Shape).Idx → α)
    (h : (⟨4, ![128, 32, 32, 4]⟩ : Shape).Transposes [0, 2, 3, 1] ⟨4, ![128, 32, 4, 32]⟩)
    (p : Fin 128) (g : Fin 32) (u : Fin 4) (b : Fin 32) :
    transpose ⟨4, ![128, 32, 4, 32]⟩ [0, 2, 3, 1] y h (ix4 p g u b) = y (ix4 p b g u) :=
  transpose_apply _ y h _ _ fun c => match c with
    | ⟨0, _⟩ => rfl
    | ⟨1, _⟩ => rfl
    | ⟨2, _⟩ => rfl
    | ⟨3, _⟩ => rfl

/-- The dealt columns and source blocks merged into the 128 lanes of the new block: lane k' = 32 · u + v is entry
    (u, v) = (k' / 32, k' mod 32). -/
theorem merge_lanes_apply (y : (⟨4, ![128, 32, 4, 32]⟩ : Shape).Idx → α)
    (h : (⟨4, ![128, 32, 4, 32]⟩ : Shape).ShapeCasts ⟨3, ![128, 32, 128]⟩) (p : Fin 128) (g : Fin 32) (k' : Fin 128) :
    shapeCast ⟨3, ![128, 32, 128]⟩ y h (ix3 p g k') = y (ix4 p g (quarter k') (srcBlock k')) :=
  shapeCast_apply y h _ _ (by
    rw [Shape.rowMajor_val_four, Shape.rowMajor_val_three]
    show ((p.val * 32 + g.val) * 4 + k'.val / 32) * 32 + k'.val % 32 = (p.val * 32 + g.val) * 128 + k'.val
    omega)

end Cert.BlockMix

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.KernelStage.lean ====
/-
  One stage of the tile computation is the specification's stage on every token of the tile.

  On a tile given as [128, 32, 128] (token, block, lane) the stage stacks the 4096 blocks as rows, multiplies the
  [4096, 128] array by the 128 × 128 weights into a zero accumulator, hands the rows back to their tokens, cuts the
  128 product columns into 32 groups of 4, deals the source-block axis behind the column axes and merges the last
  two axes into 128 lanes. Read at (p, g, k'), with k' = 32 · u + v: merging gives the dealt entry (p, g, u, v), dealing
  the entry (p, v, g, u), the cut column 4 · g + u of block v of token p, that is row 32 · p + v of the product at that
  column — the sum over the 128 lanes k of block v of token p at lane k times the weight at (k, 4 · g + u). The narrowing
  of both factors to a shorter float format before the product is the identity on the extended reals.
-/
import Idealize.ShloMosaic.PureOps.Ideal.Laws
import proofs.«103786_j28836410426083_2_alg».proof.Proof.Layouts
import proofs.«103786_j28836410426083_2_alg».proof.Proof.LibPlainDot

noncomputable section

namespace Cert.BlockMix

open Idealize.ShloMosaic Idealize.ShloMosaic.ValueIdx

/-- The stage of the tile computation at (p, g, k') is the specification's stage of token p's row at (g, k'). -/
theorem tile_stage_apply
    (Y : FVec Ideal ⟨3, ![128, 32, 128]⟩ .f32) (Wt : FVec Ideal ⟨2, ![128, 128]⟩ .f32)
    (d : DotDims ⟨2, ![4096, 128]⟩ ⟨2, ![128, 128]⟩ ⟨2, ![4096, 128]⟩) (hd : d = DotDims.plain 4096 128 128)
    (hb : FTy.bits .bf16 < FTy.bits .f32)
    (h1 : (⟨3, ![128, 32, 128]⟩ : Shape).ShapeCasts ⟨2, ![4096, 128]⟩)
    (h2 : (⟨2, ![4096, 128]⟩ : Shape).ShapeCasts ⟨3, ![128, 32, 128]⟩)
    (h3 : (⟨3, ![128, 32, 128]⟩ : Shape).ShapeCasts ⟨4, ![128, 32, 32, 4]⟩)
    (ht : (⟨4, ![128, 32, 32, 4]⟩ : Shape).Transposes [0, 2, 3, 1] ⟨4, ![128, 32, 4, 32]⟩)
    (h4 : (⟨4, ![128, 32, 4, 32]⟩ : Shape).ShapeCasts ⟨3, ![128, 32, 128]⟩)
    (p : Fin 128) (g : Fin 32) (k' : Fin 128) :
    shapeCast ⟨3, ![128, 32, 128]⟩
        (transpose ⟨4, ![128, 32, 4, 32]⟩ [0, 2, 3, 1]
          (shapeCast ⟨4, ![128, 32, 32, 4]⟩
            (shapeCast ⟨3, ![128, 32, 128]⟩
              (matmul (F := Ideal) d none (truncf .bf16 (shapeCast ⟨2, ![4096, 128]⟩ Y h1) hb) (truncf .bf16 Wt hb)
                (constant ⟨2, ![4096, 128]⟩ .f32 0x00000000#32)) h2) h3) ht) h4 (ix3 p g k')
      = stage (fun b k => Y (ix3 p b k)) (mat Wt) g k' := by
  rw [merge_lanes_apply, deal_apply, cut_groups_apply, unstack_rows_apply, Cert.PlainDot.matmul_zero_apply d hd]
  unfold stage
  refine Finset.sum_congr rfl fun k _ => ?_
  rw [truncf_apply, truncf_apply, stack_rows_apply]
  rfl

end Cert.BlockMix

end
-- ==== Proof.KernelBlock.lean ====
/-
  What the kernel body stores, at an entry of the tile.

  The body loads the two 128 × 128 weight arrays and a tile of 128 tokens, cuts the tile into blocks, runs the stage
  twice — first with the first weights, then with the second on what the first stage left — and joins the blocks
  back into a tile. So entry (p, q) of what it stores is both stages of token p's row of the tile, at block q / 128 and
  lane q mod 128.
-/
import proofs.«103786_j28836410426083_2_alg».proof.Proof.Gen.KernelIdeal.Skeleton
import proofs.«103786_j28836410426083_2_alg».proof.Proof.KernelStage

noncomputable section

namespace Cert.KernelIdeal.Tile

open Cert.KernelIdeal Cert.KernelIdeal.Gen Cert.BlockMix Idealize.ShloMosaic Idealize.ShloMosaic.ValueIdx

/-- The stored tile at (p, q): both stages of token p's row of the loaded tile, the loaded weights by row and column. -/
theorem stored_apply (v0 v2 : Vec Ideal S128x128 .f32) (v4 : Vec Ideal S128x4096 .f32) (p : Fin 128) (q : Fin 4096) :
    k0_pay1 (F := Ideal) v0 v2 v4 (ix2 p q)
      = stage (stage (fun b k => v4 (ix2 p (lane b k))) (mat v0)) (mat v2) (blockOf q) (laneOf q) := by
  unfold k0_pay1
  dsimp only
  refine (join_blocks_apply _ _ p q).trans ?_
  refine (tile_stage_apply _ v2 _ rfl _ _ _ _ _ _ p (blockOf q) (laneOf q)).trans ?_
  refine congrArg (fun r => stage r (mat v2) (blockOf q) (laneOf q)) ?_
  funext b k
  refine (tile_stage_apply _ v0 _ rfl _ _ _ _ _ _ p b k).trans ?_
  refine congrArg (fun r => stage r (mat v0) b k) ?_
  funext b' j
  rw [shapeCast_self]
  exact cut_blocks_apply v4 _ p b' j

/-- When the loaded tile is tile t of an array of tokens and the loaded weights are the two weight arrays, the stored
    entry (p, q) is the map's entry at token 128 · t + p, position q. -/
theorem stored_eq_mix (X : (⟨2, ![32768, 4096]⟩ : Shape).Idx → EReal) (W1 W2 : (⟨2, ![128, 128]⟩ : Shape).Idx → EReal)
    (x0 : Vec Ideal S128x4096 .f32) (x1 x2 : Vec Ideal S128x128 .f32) (t : Fin 256)
    (h0 : ∀ (p : Fin 128) (q : Fin 4096), x0 (ix2 p q) = X (ix2 (tileToken t p) q))
    (h1 : ∀ a b : Fin 128, x1 (ix2 a b) = W1 (ix2 a b)) (h2 : ∀ a b : Fin 128, x2 (ix2 a b) = W2 (ix2 a b))
    (p : Fin 128) (q : Fin 4096) :
    k0_pay1 (F := Ideal) x1 x2 x0 (ix2 p q) = mix X W1 W2 (ix2 (tileToken t p) q) := by
  rw [stored_apply]
  show _ = stage (stage (rowOf X (tileToken t p)) (mat W1)) (mat W2) (blockOf q) (laneOf q)
  have e0 : (fun b k => x0 (ix2 p (lane b k))) = rowOf X (tileToken t p) :=
    funext fun b => funext fun k => h0 p (lane b k)
  have e1 : mat x1 = mat W1 := funext fun a => funext fun b => h1 a b
  have e2 : mat x2 = mat W2 := funext fun a => funext fun b => h2 a b
  rw [e0, e1, e2]

end Cert.KernelIdeal.Tile

end
-- ==== Proof.KernelArray.lean ====
/-
  From the tiles to the whole array of tokens.

  The grid has 256 points; point t works on tile t — rows 128 · t to 128 · t + 127 of the [32768, 4096] array of tokens,
  all 4096 columns — and on the two whole weight arrays, and writes tile t of the output back. What it writes back is
  the map's entries on those rows (the stored tile read at an entry), the 256 tiles cover every row (row r is in tile
  r / 128), so the output array ends holding the map of the array of tokens the region found. That array is the
  [8, 4096, 4096] input read as 32768 tokens: row z is batch z / 4096, position z mod 4096.
-/
import proofs.«103786_j28836410426083_2_alg».proof.Proof.Gen.KernelIdeal.Frame
import proofs.«103786_j28836410426083_2_alg».proof.Proof.KernelBlock
import Idealize.ShloMosaic.Lib.Pipeline.Value
import Idealize.ShloMosaic.Lib.StableHlo.Run

set_option maxRecDepth 16384

noncomputable section

namespace Cert.KernelIdeal.Tile

open Cert.KernelIdeal Cert.KernelIdeal.Gen Cert.BlockMix
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The block each window is on at point t, decided over the 256 points: the tokens' windows (input 0, output 3) on
    block row t, column block 0; the weights' windows on their one block. -/
theorem point_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point as a tile number below 256. -/
def tileOf (t : Fin cfg0.N) : Fin 256 := ⟨t.val, lt_of_lt_of_eq t.isLt N_0⟩

/-- The tile loaded at point t is rows 128 · t + p of the array of tokens the region found. -/
theorem tile_read (c : Dev nD) (t : Fin cfg0.N) (p : Fin 128) (q : Fin 4096) :
    iblk m c 0 t (ix2 p q) = V m c main_v0 (ix2 (tileToken (tileOf t) p) q) := by
  obtain ⟨e0, e1, -⟩ := point_blocks t
  show V m c main_v0 (((cfg0.win 0).blk t).view.emb (ix2 p q)) = V m c main_v0 (ix2 (tileToken (tileOf t) p) q)
  refine congrArg (V m c main_v0) (funext fun a => Fin.ext ?_)
  match a with
  | ⟨0, _⟩ => show win0_0.index t (0 : Fin 2) * 128 + 1 * p.val = t.val * 128 + p.val; omega
  | ⟨1, _⟩ => show win0_0.index t (1 : Fin 2) * 4096 + 1 * q.val = q.val; omega

/-- The first weights loaded at any point are the whole first weight array. -/
theorem w1_read (c : Dev nD) (t : Fin cfg0.N) (a b : Fin 128) :
    iblk m c 1 t (ix2 a b) = V m c main_arg1 (ix2 a b) := by
  obtain ⟨-, -, e2, e3, -⟩ := point_blocks t
  show V m c main_arg1 (((cfg0.win 1).blk t).view.emb (ix2 a b)) = V m c main_arg1 (ix2 a b)
  refine congrArg (V m c main_arg1) (funext fun d => Fin.ext ?_)
  match d with
  | ⟨0, _⟩ => show win0_1.index t (0 : Fin 2) * 128 + 1 * a.val = a.val; omega
  | ⟨1, _⟩ => show win0_1.index t (1 : Fin 2) * 128 + 1 * b.val = b.val; omega

/-- The second weights loaded at any point are the whole second weight array. -/
theorem w2_read (c : Dev nD) (t : Fin cfg0.N) (a b : Fin 128) :
    iblk m c 2 t (ix2 a b) = V m c main_arg2 (ix2 a b) := by
  obtain ⟨-, -, -, -, e4, e5, -⟩ := point_blocks t
  show V m c main_arg2 (((cfg0.win 2).blk t).view.emb (ix2 a b)) = V m c main_arg2 (ix2 a b)
  refine congrArg (V m c main_arg2) (funext fun d => Fin.ext ?_)
  match d with
  | ⟨0, _⟩ => show win0_2.index t (0 : Fin 2) * 128 + 1 * a.val = a.val; omega
  | ⟨1, _⟩ => show win0_2.index t (1 : Fin 2) * 128 + 1 * b.val = b.val; omega

/-- WHAT POINT t WRITES BACK is tile t of the map of the arrays the region found. -/
theorem flushed_eq (c : Dev nD) (t : Fin cfg0.N) :
    (dats m 0 c).flushed 3 t
      = ((cfg0.win 3).blk t).view.read (Elt Ideal) (mix (V m c main_v0) (V m c main_arg1) (V m c main_arg2)) := by
  show (cfg0.win 3).cut (grid0.coords t) ((dats m 0 c).after 3 t) = _
  rw [after0_3]
  unfold out0_3
  rw [View.canon_unit_zero zero_offsets]
  simp only [View.ld_unit_zero (S := S128x128) zero_offsets, View.ld_unit_zero (S := S128x4096) zero_offsets]
  funext j
  obtain ⟨p, q, rfl⟩ : ∃ (p : Fin 128) (q : Fin 4096), j = ix2 p q := ⟨j 0, j 1, eq_ix2 j⟩
  have hemb : ((cfg0.win 3).blk t).view.emb (ix2 p q) = ix2 (tileToken (tileOf t) p) q := by
    obtain ⟨-, -, -, -, -, -, e6, e7⟩ := point_blocks t
    funext a; apply Fin.ext
    match a with
    | ⟨0, _⟩ => show win0_3.index t (0 : Fin 2) * 128 + 1 * p.val = t.val * 128 + p.val; omega
    | ⟨1, _⟩ => show win0_3.index t (1 : Fin 2) * 4096 + 1 * q.val = q.val; omega
  show k0_pay1 (iblk m c 1 t) (iblk m c 2 t) (iblk m c 0 t) (ix2 p q)
    = mix (V m c main_v0) (V m c main_arg1) (V m c main_arg2) (((cfg0.win 3).blk t).view.emb (ix2 p q))
  rw [hemb]
  exact stored_eq_mix (V m c main_v0) (V m c main_arg1) (V m c main_arg2) (iblk m c 0 t) (iblk m c 1 t) (iblk m c 2 t)
    (tileOf t) (tile_read m c t) (w1_read m c t) (w2_read m c t) p q

/-- An entry of the output array is in point t's tile iff its row is among the tile's 128 and its column among the 4096. -/
theorem mem_tile (t : Fin cfg0.N) (i : S32768x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v1).slice (win0_3.rect t)).set ↔ _
  rw [View.set_slice_whole, Rect.mem_set_unit]
  exact Iff.rfl

/-- THE TILES COVER THE ARRAY: row r is in the tile of point r / 128, which writes back. -/
theorem covered (i : S32768x4096.Idx) :
    ∃ t : Fin cfg0.N, (cfg0.win 3).flush t = true ∧ i ∈ ((cfg0.win 3).blk t).view.set := by
  have hi0 : (i 0).val < 32768 := (i 0).isLt
  have hi1 : (i 1).val < 4096 := (i 1).isLt
  obtain ⟨t, ht⟩ : ∃ t : Fin cfg0.N, t.val = (i 0).val / 128 :=
    ⟨⟨(i 0).val / 128, by show (i 0).val / 128 < grid0.N; rw [N_0]; omega⟩, rfl⟩
  obtain ⟨-, -, -, -, -, -, e6, e7⟩ := point_blocks t
  refine ⟨t, flush0_3 t, ?_⟩
  rw [mem_tile]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 4096 ≤ (i 1).val ∧ (i 1).val < win0_3.index t (1 : Fin 2) * 4096 + 4096
    omega

/-- THE OUTPUT ARRAY after the region: the map of the arrays the region found. -/
theorem array_eq (c : Dev nD) :
    (dats m 0 c).arrAt 3 cfg0.N = mix (V m c main_v0) (V m c main_arg1) (V m c main_arg2) :=
  (dats m 0 c).arrAt_eq_of_cover 3 _ (fun t _ => flushed_eq m c t) covered

/-- The array of tokens the region finds is the input read as 32768 tokens: the one host line before the region only
    changes the arrangement. -/
theorem entry_tokens (c : Dev nD) :
    (V m c main_v0 : S32768x4096.Idx → EReal) = tokens (m ((c : Thread nD τ).loc main_arg0)) := by
  have e : (V m c main_v0 : S32768x4096.Idx → EReal)
      = shapeCast S32768x4096 (m ((c : Thread nD τ).loc main_arg0)) shapeCasts_S8x4096x4096_S32768x4096 := by
    show StableHlo.after hostOps0 (fun b => m (c, b)) (Proc.devRef .tc main_v0) = _
    after_results <;> rfl
  rw [e]
  funext i
  obtain ⟨z, q, rfl⟩ : ∃ (z : Fin 32768) (q : Fin 4096), i = ix2 z q := ⟨i 0, i 1, eq_ix2 i⟩
  exact shapeCast_apply _ _ _ (ix3 (batchOf z) (posOf z) q) (by
    rw [Shape.rowMajor_val_three, Shape.rowMajor_val_two]
    show (z.val / 4096 * 4096 + z.val % 4096) * 4096 + q.val = z.val * 4096 + q.val
    omega)

end Cert.KernelIdeal.Tile

end
-- ==== Proof.KernelRun.lean ====
/-
  The kernel program's run, with its result named.

  After the region one host line reads the [32768, 4096] output array of tokens back as [8, 4096, 4096]: entry (a, s, n)
  is row 4096 · a + s, column n. The output array holds the map of the input's tokens, so the program's result is
  the specification's result of the three argument arrays, which the run leaves unchanged.
-/
import proofs.«103786_j28836410426083_2_alg».proof.Proof.KernelArray

set_option maxRecDepth 16384

noncomputable section

namespace Cert.KernelIdeal.Tile

open Cert.KernelIdeal Cert.KernelIdeal.Gen Cert.BlockMix
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-- An array of tokens read back by batch and position. -/
theorem by_batch_apply (Y : (⟨2, ![32768, 4096]⟩ : Shape).Idx → EReal)
    (h : (⟨2, ![32768, 4096]⟩ : Shape).ShapeCasts ⟨3, ![8, 4096, 4096]⟩) (a : Fin 8) (s : Fin 4096) (n : Fin 4096) :
    shapeCast ⟨3, ![8, 4096, 4096]⟩ Y h (ix3 a s n) = Y (ix2 (token a s) n) :=
  shapeCast_apply Y h _ _ (by
    rw [Shape.rowMajor_val_two, Shape.rowMajor_val_three]
    show (a.val * 4096 + s.val) * 4096 + n.val = (a.val * 4096 + s.val) * 4096 + n.val
    rfl)

/-- THE RESULT BUFFER after the host line that follows the region: the specification's result of the arguments. -/
theorem tail_value (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2)) := by
  have e : Pipeline.afterTail₀ cfgs (dats m) 0 (V0 m) [hostOps1] c main_v2
      = shapeCast S8x4096x4096 ((dats m 0 c).arrAt 3 cfg0.N) shapeCasts_S32768x4096_S8x4096x4096 := by
    unfold Pipeline.afterTail₀
    show StableHlo.after hostOps1 _ (Proc.devRef .tc main_v2) = _
    after_results
    exact congrArg (fun y => shapeCast S8x4096x4096 y shapeCasts_S32768x4096_S8x4096x4096)
      (Pipeline.withArrays_arr spec0 launch0.win.arr_inj c (V0 m c) (fun w => (dats m 0 c).arrAt w cfg0.N) 3)
  rw [e, array_eq, entry_tokens, V_main_arg1, V_main_arg2]
  funext i
  obtain ⟨a, s, n, rfl⟩ : ∃ (a : Fin 8) (s : Fin 4096) (n : Fin 4096), i = ix3 a s n := ⟨i 0, i 1, i 2, eq_ix3 i⟩
  exact by_batch_apply _ _ a s n

/-- THE RUN: every weakly fair execution of the kernel program terminates with its result buffer at the specification's
    result of the argument arrays and the argument arrays unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Tile

end
-- ==== Proof.lean ====
/-
  The kernel and its reference compute one function on the extended reals: the two-stage block mixing of 32768 tokens.

  Each token is a row of 4096 numbers read as 32 blocks of 128 lanes. A stage multiplies every block by a 128 × 128
  weight array and deals the products out again: lane k' = 32 · u + v of block h of the new row is column 4 · h + u of the
  product of block v (Proof/Spec.lean). The reference does this with a contraction, a swap of two axes and a
  re-reading of each token's numbers (Proof/RefValue.lean, over the generated reading of the reference's run); the
  kernel works on tiles of 128 tokens, stacks a tile's 4096 blocks as the rows of one matrix product into a zero
  accumulator, cuts the product's columns into groups of four, carries the source-block axis behind the column
  axes and merges (Proof/Layouts.lean, Proof/KernelStage.lean, Proof/KernelBlock.lean). Both are, entry by entry,
  the same finite sum of products of the same entries, so no algebraic law beyond the reading of the positions is
  used and the finiteness of the inputs is not needed; narrowing to a shorter float format before the products is
  the identity on the extended reals. The 256 tiles cover the array of tokens (Proof/KernelArray.lean), and the host
  lines around the region only change the arrangement of the same numbers (Proof/KernelRun.lean).

  The three frames are the generated ones (the reference's is its generated run with the result dropped); the
  idealization rewrote nothing, so its conjunct is trivial.
-/
import proofs.«103786_j28836410426083_2_alg».proof.Defs
import proofs.«103786_j28836410426083_2_alg».proof.Proof.Gen.Kernel
import proofs.«103786_j28836410426083_2_alg».proof.Proof.Gen.Kernel.Skeleton
import proofs.«103786_j28836410426083_2_alg».proof.Proof.Gen.Kernel.Launch
import proofs.«103786_j28836410426083_2_alg».proof.Proof.Gen.Kernel.Points
import proofs.«103786_j28836410426083_2_alg».proof.Proof.Gen.Kernel.Frame
import proofs.«103786_j28836410426083_2_alg».proof.Proof.Gen.KernelIdeal
import proofs.«103786_j28836410426083_2_alg».proof.Proof.Gen.KernelIdeal.Skeleton
import proofs.«103786_j28836410426083_2_alg».proof.Proof.Gen.KernelIdeal.Launch
import proofs.«103786_j28836410426083_2_alg».proof.Proof.Gen.KernelIdeal.Points
import proofs.«103786_j28836410426083_2_alg».proof.Proof.Gen.KernelIdeal.Frame
import proofs.«103786_j28836410426083_2_alg».proof.Proof.Gen.ReferenceIdeal
import proofs.«103786_j28836410426083_2_alg».proof.Proof.Gen.ReferenceIdeal.Run
import proofs.«103786_j28836410426083_2_alg».proof.Proof.Gen.ReferenceIdeal.Read
import proofs.«103786_j28836410426083_2_alg».proof.Proof.Gen.Pre_finite_inputs
import proofs.«103786_j28836410426083_2_alg».proof.Proof.RefValue
import proofs.«103786_j28836410426083_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification's result of arguments that agree. -/
theorem algebraic : Cert.algebraic_KernelIdeal_ReferenceIdeal := by
  intro m ρ m' ρ' _ hagree
  refine ⟨fun c => Cert.BlockMix.result
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
